-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S2000 : Shape := ⟨1, ![2000]⟩

abbrev nBuf : Space → Nat
  | .hbm => 49
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S2000x128_S2000x128 : S2000x128.ShapeCasts S2000x128
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v36) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_9 : Ref sig .tc := ⟨.hbm, 61, rfl⟩
abbrev main_v48 : Ref sig .tc := ⟨.hbm, 62, rfl⟩
abbrev main_v49 : Ref sig .tc := ⟨.hbm, 63, rfl⟩
abbrev main_c_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
import proofs.«112646_j31791347925571_1_alg».proof.Proof.Gen.KernelIdeal.Frame

/-!
# The idealized kernel's run, with its result array named

The program is six pipelined regions among three stretches of host operations.  Its run leaves every buffer
of a core at the last stage of a fold through the program: a stretch of host operations applies its
operations in order, a region replaces its arrays by what its write-backs leave.  Here that run is stated
with the result array read at the last stage of the fold, beside the two argument arrays, which end as
they were launched.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the
    last stage of the fold at its buffer, and the two argument arrays hold what they were launched with. -/
theorem run : θ_run defs (onTc (τ := τ) (main (F := F))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v37 (by decide)),
       (h c _ (mem_uc main_arg0 (by decide))).trans (W9_main_arg0 m ρ c),
       (h c _ (mem_uc main_arg1 (by decide))).trans (W9_main_arg1 m ρ c)⟩)

end Cert.KernelIdeal.RunValue

end
-- ==== Proof.Spec.lean ====
import proofs.«112646_j31791347925571_1_alg».proof.Proof.Gen.ReferenceIdeal
import Idealize.ShloMosaic.Lib.Pipeline.Value
import Idealize.ShloMosaic.Lib.ValueIdx
import Idealize.ShloMosaic.PureOps.Ideal.Laws

/-!
# The node-wise stages of the two-layer graph convolution, as whole-array functions

All arrays are [100000, 128] (one row per node) except the degree normalisation, a column [100000, 1].
Four stages act row by row:

* `scale n x`      — row p of x times n p;
* `combine n s h`  — n p times (row p of s plus row p of h);
* `layerNorm a`    — row p of a, centred by its mean and divided by the root of its variance plus ε
                     (mean and variance are sums over the 128 lanes divided by 128);
* the residual sum, which is the plain `addf`.

Each is written with the host spelling of the operation (a column is laid over the 128 lanes by a
broadcast; a lane sum is a host reduction from the zero word), and then read at a row p and lane q.
The layer norm read at (p, q) is `lnRow` of row p: a function of the 128 numbers of that row only.
-/

noncomputable section

namespace Cert.Gcn

open Cert.ReferenceIdeal Cert.ReferenceIdeal.Gen Idealize.ShloMosaic Idealize.ShloMosaic.ValueIdx

abbrev Arr := FVec Ideal S100000x128 .f32
abbrev Col := FVec Ideal S100000x1 .f32

/-- A column laid over the 128 lanes. -/
def colBc (n : Col) : Arr := broadcastInDim S100000x128 ![0, 1] bcast_S100000x1_S100000x128_0_1 n

/-- Row p of `x` times `n p`. -/
def scale (n : Col) (x : Arr) : Arr := mulf (colBc n) x

/-- `n p` times the sum of rows p of `s` and `h`. -/
def combine (n : Col) (s h : Arr) : Arr := mulf (colBc n) (addf s h)

/-- The lane sum of each row from the zero word, divided by 128, as a column. -/
def rowMeanCol (a : Arr) : Col :=
  Host.divf (broadcastInDim S100000x1 ![0] bcast_S100000_S100000x1_0
      (Host.reduceAdd a (constant S_ .f32 0x00000000#32) reducesTo_S100000x128_S100000_d1 h_S_))
    (broadcastInDim S100000x1 ![] bcast_S_S100000x1 (constant S_ .f32 0x43000000#32))

/-- Each row centred by its mean, times the reciprocal root of (its variance plus ε). -/
def layerNorm (a : Arr) : Arr :=
  mulf (subf a (colBc (rowMeanCol a)))
    (colBc (Host.rsqrt (addf (rowMeanCol (mulf (subf a (colBc (rowMeanCol a))) (subf a (colBc (rowMeanCol a)))))
      (broadcastInDim S100000x1 ![] bcast_S_S100000x1 (constant S_ .f32 0x3727C5AC#32)))))

/-- The layer norm of ONE row of N numbers at lane q: (r q − μ) · rsqrt(σ + ε), μ = (Σ r)/c,
    σ = (Σ (r − μ)²)/c. -/
def lnRow {N : ℕ} (c ε : EReal) (r : Fin N → EReal) (q : Fin N) : EReal :=
  (r q - Ideal.div (∑ k, r k) c)
    * Ideal.rsqrt (Ideal.div (∑ k, (r k - Ideal.div (∑ k, r k) c) * (r k - Ideal.div (∑ k, r k) c)) c + ε)

theorem colBc_apply (n : Col) (p : Fin 100000) (q : Fin 128) : colBc n (ix2 p q) = n (ix2 p 0) := by
  unfold colBc
  exact broadcastInDim_apply _ bcast_S100000x1_S100000x128_0_1 n (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])

theorem scale_apply (n : Col) (x : Arr) (p : Fin 100000) (q : Fin 128) :
    scale n x (ix2 p q) = n (ix2 p 0) * x (ix2 p q) := by
  unfold scale; rw [mulf_apply, colBc_apply]

theorem combine_apply (n : Col) (s h : Arr) (p : Fin 100000) (q : Fin 128) :
    combine n s h (ix2 p q) = n (ix2 p 0) * (s (ix2 p q) + h (ix2 p q)) := by
  unfold combine; rw [mulf_apply, colBc_apply, addf_apply]

theorem rowMeanCol_apply (a : Arr) (p : Fin 100000) :
    rowMeanCol a (ix2 p 0) = Ideal.div (∑ k : Fin 128, a (ix2 p k)) (Ideal.ofBits .f32 0x43000000#32) := by
  unfold rowMeanCol
  show Ideal.div (broadcastInDim S100000x1 ![0] bcast_S100000_S100000x1_0
      (Host.reduceAdd a (constant S_ .f32 0x00000000#32) reducesTo_S100000x128_S100000_d1 h_S_) (ix2 p 0)) _ = _
  rw [broadcastInDim_apply _ bcast_S100000_S100000x1_0 _ (ix2 p 0) (ix1 p) (fun a => match a with
    | ⟨0, _⟩ => by show p.val = if (100000 : Nat) = 1 then 0 else p.val; rw [if_neg (by decide)])]
  simp only [Host.reduceAdd, Ideal.hostReduceAdd_def]
  rw [Ideal.hostReduceAdd_single reducesTo_S100000x128_S100000_d1 (by decide)]
  have hz : (constant (F := Ideal) S_ .f32 0x00000000#32) (Shape.Idx.first h_S_) = 0 := by
    rw [constant_apply, Ideal.ofBits_zero_f32]
  rw [hz, zero_add]
  refine congrArg₂ Ideal.div (Finset.sum_congr rfl fun k _ => ?_) rfl
  exact congrArg a (funext fun d => Fin.ext (by match d with | ⟨0, _⟩ => rfl | ⟨1, _⟩ => rfl))

theorem layerNorm_apply (a : Arr) (p : Fin 100000) (q : Fin 128) :
    layerNorm a (ix2 p q)
      = lnRow (Ideal.ofBits .f32 0x43000000#32) (Ideal.ofBits .f32 0x3727C5AC#32) (fun k => a (ix2 p k)) q := by
  unfold layerNorm lnRow
  rw [mulf_apply, subf_apply, colBc_apply, colBc_apply, rowMeanCol_apply]
  show _ * Ideal.rsqrt (rowMeanCol _ (ix2 p 0) + Ideal.ofBits .f32 0x3727C5AC#32) = _
  rw [rowMeanCol_apply]
  refine congrArg (fun z => _ * Ideal.rsqrt (Ideal.div z _ + _)) (Finset.sum_congr rfl fun k _ => ?_)
  rw [mulf_apply, subf_apply, colBc_apply, rowMeanCol_apply]

end Cert.Gcn

end
-- ==== Proof.RefStages.lean ====
import proofs.«112646_j31791347925571_1_alg».proof.Proof.Gen.ReferenceIdeal.Read
import proofs.«112646_j31791347925571_1_alg».proof.Proof.Spec

/-!
# The reference, stage by stage

The reference computes, with n the degree normalisation column and A the neighbour sum (gather the
rows of the sources, add them into the rows of the destinations):

  conv x = combine n (A (scale n x)) (scale n x),   result = conv (layerNorm (conv x + x)) + x.

Its operations are read here as those named stages; the neighbour sum and the normalisation stay
unopened functions of the edge list.
-/

noncomputable section

namespace Cert.Gcn

open Cert.ReferenceIdeal Cert.ReferenceIdeal.Gen Cert.ReferenceIdeal.Read Idealize.ShloMosaic

abbrev Edges := (⟨S2x1600000, .i32⟩ : BufTy).Contents (Elt Ideal)

/-- The degree normalisation, one entry per node, as a column. -/
def norm (e : Edges) : Col := val_main_v11 (F := Ideal) e

/-- The neighbour sum of `h`: its rows gathered at the edges' sources and added into the rows of the
    edges' destinations, from the zero array. -/
def agg (h : Arr) (e : Edges) : Arr :=
  Host.scatterAdd scatter_S100000x128_S1600000x1_S1600000x128_1_0_0_1 (val_main_v21 (F := Ideal)) (val_main_v22 (F := Ideal) e)
    (Host.gather gather_S100000x128_S1600000x1_S1600000x128_1_0_n_n_0_1_1128 h (val_main_v19 (F := Ideal) e))

abbrev IdxVec := (⟨S1600000, .i32⟩ : BufTy).Contents (Elt Ideal)

/-- The neighbour sum from the two index vectors: destinations `d`, sources `s` (a negative source
    index counted from the end, as the host does before it gathers). -/
def aggIdx (h : Arr) (d s : IdxVec) : Arr :=
  Host.scatterAdd scatter_S100000x128_S1600000x1_S1600000x128_1_0_0_1 (val_main_v21 (F := Ideal))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (val_main_v14 (F := Ideal))) (addi s (val_main_v16 (F := Ideal))) s)))

theorem agg_eq (h : Arr) (e : Edges) : agg h e = aggIdx h (val_main_v1 (F := Ideal) e) (val_main_v3 (F := Ideal) e) := rfl

/-- One graph convolution. -/
def conv (e : Edges) (x : Arr) : Arr := combine (norm e) (agg (scale (norm e) x) e) (scale (norm e) x)

/-- The whole network. -/
def net (x : Arr) (e : Edges) : Arr := addf (conv e (layerNorm (addf (conv e x) x))) x

theorem v13_eq (x : Arr) (e : Edges) : val_main_v13 (F := Ideal) x e = scale (norm e) x := rfl
theorem v23_eq (x : Arr) (e : Edges) : val_main_v23 (F := Ideal) x e = agg (val_main_v13 (F := Ideal) x e) e := rfl
theorem v26_eq (x : Arr) (e : Edges) :
    val_main_v26 (F := Ideal) x e = combine (norm e) (val_main_v23 (F := Ideal) x e) (val_main_v13 (F := Ideal) x e) := rfl
theorem v27_eq (x : Arr) (e : Edges) : val_main_v27 (F := Ideal) x e = addf (val_main_v26 (F := Ideal) x e) x := rfl
theorem v45_eq (x : Arr) (e : Edges) : val_main_v45 (F := Ideal) x e = layerNorm (val_main_v27 (F := Ideal) x e) := rfl
theorem v47_eq (x : Arr) (e : Edges) : val_main_v47 (F := Ideal) x e = scale (norm e) (val_main_v45 (F := Ideal) x e) := rfl
theorem v57_eq (x : Arr) (e : Edges) : val_main_v57 (F := Ideal) x e = agg (val_main_v47 (F := Ideal) x e) e := rfl
theorem v60_eq (x : Arr) (e : Edges) :
    val_main_v60 (F := Ideal) x e = combine (norm e) (val_main_v57 (F := Ideal) x e) (val_main_v47 (F := Ideal) x e) := rfl
theorem v61_eq (x : Arr) (e : Edges) : val_main_v61 (F := Ideal) x e = addf (val_main_v60 (F := Ideal) x e) x := rfl

/-- The reference's result is the network of its arguments. -/
theorem ref_eq (x : Arr) (e : Edges) : val_main_v61 (F := Ideal) x e = net x e := by
  rw [v61_eq, v60_eq, v57_eq, v47_eq, v45_eq, v27_eq, v26_eq, v23_eq, v13_eq]
  rfl

end Cert.Gcn

end
-- ==== Proof.HostSteps.lean ====
import proofs.«112646_j31791347925571_1_alg».proof.Proof.Gen.KernelIdeal.Launch
import proofs.«112646_j31791347925571_1_alg».proof.Proof.RefStages
import Idealize.ShloMosaic.Lib.StableHlo.Run

/-!
# The kernel program's three stretches of host operations

Whatever the buffers hold when a stretch starts:

* the first stretch leaves the two index vectors (destinations, sources) cut from the edge list and the
  degree normalisation column — the same operations as the reference's — and does not touch the node features;
* the second and the third each leave the neighbour sum of the array the preceding region wrote, and
  touch nothing else that is read later.
-/

set_option maxRecDepth 16384

noncomputable section

namespace Cert.KernelIdeal.HostSteps

open Cert.KernelIdeal Cert.KernelIdeal.Gen Idealize.ShloMosaic Idealize.ShloMosaic.TcCoe Idealize.SL.Sem
open Idealize.ShloMosaic.StableHlo Cert.Gcn

variable (Wv : Valuation τ sig (Elt Ideal))

theorem host0_v11 : after (hostOps0 (F := Ideal)) Wv (Proc.devRef .tc main_v11) = norm (Wv (Proc.devRef .tc main_arg1)) := by
  after_results; rfl

theorem host0_v1 : after (hostOps0 (F := Ideal)) Wv (Proc.devRef .tc main_v1)
    = Cert.ReferenceIdeal.Read.val_main_v1 (F := Ideal) (Wv (Proc.devRef .tc main_arg1)) := by
  after_results; rfl

theorem host0_v3 : after (hostOps0 (F := Ideal)) Wv (Proc.devRef .tc main_v3)
    = Cert.ReferenceIdeal.Read.val_main_v3 (F := Ideal) (Wv (Proc.devRef .tc main_arg1)) := by
  after_results; rfl

theorem host0_arg0 : after (hostOps0 (F := Ideal)) Wv (Proc.devRef .tc main_arg0) = Wv (Proc.devRef .tc main_arg0) := by
  after_results

theorem host1_v22 : after (hostOps1 (F := Ideal)) Wv (Proc.devRef .tc main_v22)
    = aggIdx (Wv (Proc.devRef .tc main_v12)) (Wv (Proc.devRef .tc main_v1)) (Wv (Proc.devRef .tc main_v3)) := by
  after_results; rfl

theorem host1_arg0 : after (hostOps1 (F := Ideal)) Wv (Proc.devRef .tc main_arg0) = Wv (Proc.devRef .tc main_arg0) := by
  after_results
theorem host1_v11 : after (hostOps1 (F := Ideal)) Wv (Proc.devRef .tc main_v11) = Wv (Proc.devRef .tc main_v11) := by
  after_results
theorem host1_v12 : after (hostOps1 (F := Ideal)) Wv (Proc.devRef .tc main_v12) = Wv (Proc.devRef .tc main_v12) := by
  after_results
theorem host1_v1 : after (hostOps1 (F := Ideal)) Wv (Proc.devRef .tc main_v1) = Wv (Proc.devRef .tc main_v1) := by
  after_results
theorem host1_v3 : after (hostOps1 (F := Ideal)) Wv (Proc.devRef .tc main_v3) = Wv (Proc.devRef .tc main_v3) := by
  after_results

theorem host4_v35 : after (hostOps4 (F := Ideal)) Wv (Proc.devRef .tc main_v35)
    = aggIdx (Wv (Proc.devRef .tc main_v25)) (Wv (Proc.devRef .tc main_v1)) (Wv (Proc.devRef .tc main_v3)) := by
  after_results; rfl

theorem host4_arg0 : after (hostOps4 (F := Ideal)) Wv (Proc.devRef .tc main_arg0) = Wv (Proc.devRef .tc main_arg0) := by
  after_results
theorem host4_v11 : after (hostOps4 (F := Ideal)) Wv (Proc.devRef .tc main_v11) = Wv (Proc.devRef .tc main_v11) := by
  after_results
theorem host4_v25 : after (hostOps4 (F := Ideal)) Wv (Proc.devRef .tc main_v25) = Wv (Proc.devRef .tc main_v25) := by
  after_results

end Cert.KernelIdeal.HostSteps

end
-- ==== Proof.Payload.lean ====
import proofs.«112646_j31791347925571_1_alg».proof.Proof.Gen.KernelIdeal.Skeleton
import proofs.«112646_j31791347925571_1_alg».proof.Proof.Spec

/-!
# What each kernel body computes, entry by entry

A body works on a tile of 2000 rows.  Its stored value at row p, lane q of the tile is a function of
row p of the loaded tiles only:

* the two scaling bodies: the loaded entry times the entry of the one-column tile at row p;
* the two combining bodies: the column's entry at row p times the sum of the two loaded entries;
* the residual + layer-norm body: `lnRow` of the 128 sums of row p of the two loaded tiles;
* the last body: the sum of the two loaded entries.

A [2000,1] tile is laid over the lanes by a broadcast that reads its row; a lane sum lands in a
[2000] vector that is recast to a column.
-/

noncomputable section

namespace Cert.KernelIdeal.Payload

open Cert.KernelIdeal Cert.KernelIdeal.Gen Idealize.ShloMosaic Idealize.ShloMosaic.ValueIdx Cert.Gcn

/-- A [2000,1] column broadcast over the lanes, read at (p, q), is the column at row p. -/
theorem colTile_apply (v : FVec Ideal S2000x1 .f32) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A [2000] vector recast to a column, read at row p. -/
theorem vecCol_apply (v : FVec Ideal S2000 .f32) (p : Fin 2000) :
    shapeCast S2000x1 v shapeCasts_S2000_S2000x1 (ix2 p 0) = v (ix1 p) :=
  shapeCast_apply v shapeCasts_S2000_S2000x1 (ix2 p 0) (ix1 p) (by
    rw [Shape.rowMajor_val_one, Shape.rowMajor_val_two]; show p.val = p.val * 1 + 0; omega)

/-- The lane sum of a [2000,128] tile at row p. -/
theorem laneSum_apply (v : FVec Ideal S2000x128 .f32) (hφ : FKind.Formats .f32)
    (hacc : (0x00000000#32 : BitVec 32) = 0x00000000#32) (p : Fin 2000) :
    multiReduction (F := Ideal) .add [1] S2000 v 0x00000000#32 reduces_S2000x128_S2000 hφ hacc (ix1 p)
      = ∑ k : Fin 128, v (ix2 p k) := by
  refine (Ideal.multiReduction_add_single v 0x00000000#32 reduces_S2000x128_S2000 hφ hacc (ix1 p)).trans ?_
  refine Finset.sum_congr rfl fun k _ => congrArg v (funext fun d => Fin.ext ?_)
  match d with
  | ⟨0, _⟩ => rfl
  | ⟨1, _⟩ => rfl

theorem scale0_apply (x0 : FVec Ideal S2000x128 .f32) (x1 : FVec Ideal S2000x1 .f32) (p : Fin 2000) (q : Fin 128) :
    k0_pay1 (F := Ideal) x0 x1 (ix2 p q) = x0 (ix2 p q) * x1 (ix2 p 0) := by
  unfold k0_pay1
  show mulf x0 (broadcastTo S2000x128 (shapeCast S2000x1 x1 shapeCasts_S2000x1_S2000x1) broadcasts_S2000x1_S2000x128) (ix2 p q) = _
  rw [mulf_apply, colTile_apply, shapeCast_self]

theorem scale3_apply (x0 : FVec Ideal S2000x128 .f32) (x1 : FVec Ideal S2000x1 .f32) (p : Fin 2000) (q : Fin 128) :
    k3_pay1 (F := Ideal) x0 x1 (ix2 p q) = x0 (ix2 p q) * x1 (ix2 p 0) := by
  unfold k3_pay1
  show mulf (shapeCast S2000x128 x0 shapeCasts_S2000x128_S2000x128)
    (broadcastTo S2000x128 (shapeCast S2000x1 x1 shapeCasts_S2000x1_S2000x1) broadcasts_S2000x1_S2000x128) (ix2 p q) = _
  rw [mulf_apply, colTile_apply, shapeCast_self, shapeCast_self]

theorem combine1_apply (n : FVec Ideal S2000x1 .f32) (s h : FVec Ideal S2000x128 .f32) (p : Fin 2000) (q : Fin 128) :
    k1_pay1 (F := Ideal) n s h (ix2 p q) = n (ix2 p 0) * (s (ix2 p q) + h (ix2 p q)) := by
  unfold k1_pay1
  show mulf (broadcastTo S2000x128 (shapeCast S2000x1 n shapeCasts_S2000x1_S2000x1) broadcasts_S2000x1_S2000x128)
    (addf (shapeCast S2000x128 s shapeCasts_S2000x128_S2000x128) (shapeCast S2000x128 h shapeCasts_S2000x128_S2000x128)) (ix2 p q) = _
  rw [mulf_apply, colTile_apply, addf_apply, shapeCast_self, shapeCast_self, shapeCast_self]

theorem combine4_apply (n : FVec Ideal S2000x1 .f32) (s h : FVec Ideal S2000x128 .f32) (p : Fin 2000) (q : Fin 128) :
    k4_pay1 (F := Ideal) n s h (ix2 p q) = n (ix2 p 0) * (s (ix2 p q) + h (ix2 p q)) := by
  unfold k4_pay1
  show mulf (broadcastTo S2000x128 (shapeCast S2000x1 n shapeCasts_S2000x1_S2000x1) broadcasts_S2000x1_S2000x128)
    (addf (shapeCast S2000x128 s shapeCasts_S2000x128_S2000x128) (shapeCast S2000x128 h shapeCasts_S2000x128_S2000x128)) (ix2 p q) = _
  rw [mulf_apply, colTile_apply, addf_apply, shapeCast_self, shapeCast_self, shapeCast_self]

theorem add5_apply (a b : FVec Ideal S2000x128 .f32) (j : S2000x128.Idx) :
    k5_pay1 (F := Ideal) a b j = a j + b j := by
  unfold k5_pay1
  show addf (shapeCast S2000x128 a shapeCasts_S2000x128_S2000x128) b j = _
  rw [addf_apply, shapeCast_self]

/-- The mean column of the body: the lane sum of row p divided by the word of 128. -/
theorem meanCol_apply (v : FVec Ideal S2000x128 .f32) (hφ : FKind.Formats .f32)
    (hacc : (0x00000000#32 : BitVec 32) = 0x00000000#32) (p : Fin 2000) :
    divf (shapeCast S2000x1 (multiReduction (F := Ideal) .add [1] S2000 v 0x00000000#32 reduces_S2000x128_S2000 hφ hacc) shapeCasts_S2000_S2000x1)
        (broadcast S2000x1 (Scalar.ofBits (F := Ideal) .f32 0x43000000#32)) (ix2 p 0)
      = Ideal.div (∑ k : Fin 128, v (ix2 p k)) (Ideal.ofBits .f32 0x43000000#32) := by
  rw [divf_apply, vecCol_apply, laneSum_apply]; rfl

theorem ln2_apply (a b : FVec Ideal S2000x128 .f32) (p : Fin 2000) (q : Fin 128) :
    k2_pay1 (F := Ideal) a b (ix2 p q)
      = lnRow (Ideal.ofBits .f32 0x43000000#32) (Ideal.ofBits .f32 0x3727C5AC#32) (fun k => a (ix2 p k) + b (ix2 p k)) q := by
  unfold k2_pay1 lnRow
  rw [shapeCast_self]
  dsimp only
  rw [mulf_apply, subf_apply, colTile_apply, colTile_apply, meanCol_apply, addf_apply]
  show _ * Ideal.rsqrt (_ + Ideal.ofBits .f32 0x3727C5AC#32) = _
  rw [meanCol_apply]
  simp only [mulf_apply, subf_apply, colTile_apply, addf_apply]
  rw [meanCol_apply]
  simp only [addf_apply]

end Cert.KernelIdeal.Payload

end
-- ==== Proof.Region0.lean ====
import proofs.«112646_j31791347925571_1_alg».proof.Proof.Gen.KernelIdeal.Frame
import proofs.«112646_j31791347925571_1_alg».proof.Proof.Payload

/-!
# Region 0: the first scaling, x · norm

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg0.N, t.val < 50 := (by decide +kernel : ∀ t : Fin grid0.N, _)

/-- Window 0's block index at point t is (t, 0). -/
theorem idx0 : ∀ t : Fin cfg0.N, win0_0.index t (0 : Fin 2) = t.val ∧ win0_0.index t (1 : Fin 2) = 0 :=
  (by decide +kernel : ∀ t : Fin grid0.N, _)

/-- Window 1's block index at point t is (t, 0). -/
theorem idx1 : ∀ t : Fin cfg0.N, win0_1.index t (0 : Fin 2) = t.val ∧ win0_1.index t (1 : Fin 2) = 0 :=
  (by decide +kernel : ∀ t : Fin grid0.N, _)

/-- Window 2's block index at point t is (t, 0). -/
theorem idx2 : ∀ t : Fin cfg0.N, win0_2.index t (0 : Fin 2) = t.val ∧ win0_2.index t (1 : Fin 2) = 0 :=
  (by decide +kernel : ∀ t : Fin grid0.N, _)

/-- The array row under row p of point t's blocks. -/
def row (t : Fin cfg0.N) (p : Fin 2000) : Fin 100000 :=
  ⟨t.val * 2000 + p.val, by have := npts t; have := p.isLt; omega⟩

theorem emb0 (t : Fin cfg0.N) (p : Fin 2000) (q : Fin 128) :
    ((cfg0.win 0).blk t).view.emb (ix2 p q) = ix2 (row t p) q := by
  obtain ⟨e0, e1⟩ := idx0 t
  funext a; apply Fin.ext
  match a with
  | ⟨0, _⟩ => show win0_0.index t (0 : Fin 2) * 2000 + 1 * p.val = t.val * 2000 + p.val; omega
  | ⟨1, _⟩ => show win0_0.index t (1 : Fin 2) * 128 + 1 * q.val = q.val; omega

/-- Input window 0's block at point t, read at (p, q), is its array at (2000·t + p, q). -/
theorem blk0 (c : Dev nD) (t : Fin cfg0.N) (p : Fin 2000) (q : Fin 128) :
    iblk0 V c 0 t (ix2 p q) = V c main_arg0 (ix2 (row t p) q) := by
  show V c main_arg0 (((cfg0.win 0).blk t).view.emb (ix2 p q)) = _
  rw [emb0]

theorem emb1 (t : Fin cfg0.N) (p : Fin 2000) :
    ((cfg0.win 1).blk t).view.emb (ix2 p 0) = ix2 (row t p) 0 := by
  obtain ⟨e0, e1⟩ := idx1 t
  funext a; apply Fin.ext
  match a with
  | ⟨0, _⟩ => show win0_1.index t (0 : Fin 2) * 2000 + 1 * p.val = t.val * 2000 + p.val; omega
  | ⟨1, _⟩ => show win0_1.index t (1 : Fin 2) * 1 + 1 * 0 = 0; omega

/-- Input window 1's one-column block at point t, read at row p, is its array at row 2000·t + p. -/
theorem blk1 (c : Dev nD) (t : Fin cfg0.N) (p : Fin 2000) :
    iblk0 V c 1 t (ix2 p 0) = V c main_v11 (ix2 (row t p) 0) := by
  show V c main_v11 (((cfg0.win 1).blk t).view.emb (ix2 p 0)) = _
  rw [emb1]

theorem emb2 (t : Fin cfg0.N) (p : Fin 2000) (q : Fin 128) :
    ((cfg0.win 2).blk t).view.emb (ix2 p q) = ix2 (row t p) q := by
  obtain ⟨e0, e1⟩ := idx2 t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

/-- What point t writes back is block t of its input array scaled row by row by the normalisation column. -/
theorem flushed_eq (c : Dev nD) (t : Fin cfg0.N) :
    (dat0 V c).flushed 2 t = ((cfg0.win 2).blk t).view.read (Elt Ideal) (scale (V c main_v11) (V c main_arg0)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = (scale (V c main_v11) (V c main_arg0)) (((cfg0.win 2).blk t).view.emb (ix2 p q))
  refine (scale0_apply (iblk0 V c 0 t) (iblk0 V c 1 t) p q).trans ?_
  rw [emb2, scale_apply, blk0 V c t p q, blk1 V c t p]
  exact mul_comm _ _

theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v12).slice (win0_2.rect t)).set ↔ _
  rw [View.set_slice_whole, Rect.mem_set_unit]
  exact Iff.rfl

/-- Row r of the output array lies in the block of point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 := ⟨⟨(i 0).val / 2000, by show _ < grid0.N; omega⟩, rfl⟩
  obtain ⟨e0, e1⟩ := idx2 t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its output array is its input array scaled row by row by the normalisation column. -/
theorem arr (c : Dev nD) : (dat0 V c).arrAt 2 cfg0.N = scale (V c main_v11) (V c main_arg0) :=
  (dat0 V c).arrAt_eq_of_cover 2 _ (fun t _ => flushed_eq V c t) cover

end Cert.KernelIdeal.Region0

end
-- ==== Proof.Region1.lean ====
import proofs.«112646_j31791347925571_1_alg».proof.Proof.Gen.KernelIdeal.Frame
import proofs.«112646_j31791347925571_1_alg».proof.Proof.Payload

/-!
# Region 1: the first combine, norm · (neighbour sum + scaled)

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg1.N, t.val < 50 := (by decide +kernel : ∀ t : Fin grid1.N, _)

/-- Window 0's block index at point t is (t, 0). -/
theorem idx0 : ∀ t : Fin cfg1.N, win1_0.index t (0 : Fin 2) = t.val ∧ win1_0.index t (1 : Fin 2) = 0 :=
  (by decide +kernel : ∀ t : Fin grid1.N, _)

/-- Window 1's block index at point t is (t, 0). -/
theorem idx1 : ∀ t : Fin cfg1.N, win1_1.index t (0 : Fin 2) = t.val ∧ win1_1.index t (1 : Fin 2) = 0 :=
  (by decide +kernel : ∀ t : Fin grid1.N, _)

/-- Window 2's block index at point t is (t, 0). -/
theorem idx2 : ∀ t : Fin cfg1.N, win1_2.index t (0 : Fin 2) = t.val ∧ win1_2.index t (1 : Fin 2) = 0 :=
  (by decide +kernel : ∀ t : Fin grid1.N, _)

/-- Window 3's block index at point t is (t, 0). -/
theorem idx3 : ∀ t : Fin cfg1.N, win1_3.index t (0 : Fin 2) = t.val ∧ win1_3.index t (1 : Fin 2) = 0 :=
  (by decide +kernel : ∀ t : Fin grid1.N, _)

/-- The array row under row p of point t's blocks. -/
def row (t : Fin cfg1.N) (p : Fin 2000) : Fin 100000 :=
  ⟨t.val * 2000 + p.val, by have := npts t; have := p.isLt; omega⟩

theorem emb0 (t : Fin cfg1.N) (p : Fin 2000) (q : Fin 128) :
    ((cfg1.win 0).blk t).view.emb (ix2 p q) = ix2 (row t p) q := by
  obtain ⟨e0, e1⟩ := idx0 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * q.val = q.val; omega

/-- Input window 0's block at point t, read at (p, q), is its array at (2000·t + p, q). -/
theorem blk0 (c : Dev nD) (t : Fin cfg1.N) (p : Fin 2000) (q : Fin 128) :
    iblk1 V c 0 t (ix2 p q) = V c main_v22 (ix2 (row t p) q) := by
  show V c main_v22 (((cfg1.win 0).blk t).view.emb (ix2 p q)) = _
  rw [emb0]

theorem emb1 (t : Fin cfg1.N) (p : Fin 2000) (q : Fin 128) :
    ((cfg1.win 1).blk t).view.emb (ix2 p q) = ix2 (row t p) q := by
  obtain ⟨e0, e1⟩ := idx1 t
  funext a; apply Fin.ext
  match a with
  | ⟨0, _⟩ => show win1_1.index t (0 : Fin 2) * 2000 + 1 * p.val = t.val * 2000 + p.val; omega
  | ⟨1, _⟩ => show win1_1.index t (1 : Fin 2) * 128 + 1 * q.val = q.val; omega

/-- Input window 1's block at point t, read at (p, q), is its array at (2000·t + p, q). -/
theorem blk1 (c : Dev nD) (t : Fin cfg1.N) (p : Fin 2000) (q : Fin 128) :
    iblk1 V c 1 t (ix2 p q) = V c main_v12 (ix2 (row t p) q) := by
  show V c main_v12 (((cfg1.win 1).blk t).view.emb (ix2 p q)) = _
  rw [emb1]

theorem emb2 (t : Fin cfg1.N) (p : Fin 2000) :
    ((cfg1.win 2).blk t).view.emb (ix2 p 0) = ix2 (row t p) 0 := by
  obtain ⟨e0, e1⟩ := idx2 t
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

/-- Input window 2's one-column block at point t, read at row p, is its array at row 2000·t + p. -/
theorem blk2 (c : Dev nD) (t : Fin cfg1.N) (p : Fin 2000) :
    iblk1 V c 2 t (ix2 p 0) = V c main_v11 (ix2 (row t p) 0) := by
  show V c main_v11 (((cfg1.win 2).blk t).view.emb (ix2 p 0)) = _
  rw [emb2]

theorem emb3 (t : Fin cfg1.N) (p : Fin 2000) (q : Fin 128) :
    ((cfg1.win 3).blk t).view.emb (ix2 p q) = ix2 (row t p) q := by
  obtain ⟨e0, e1⟩ := idx3 t
  funext a; apply Fin.ext
  match a with
  | ⟨0, _⟩ => show win1_3.index t (0 : Fin 2) * 2000 + 1 * p.val = t.val * 2000 + p.val; omega
  | ⟨1, _⟩ => show win1_3.index t (1 : Fin 2) * 128 + 1 * q.val = q.val; omega

/-- What point t writes back is block t of the normalisation column times the sum of its two input arrays, row by row. -/
theorem flushed_eq (c : Dev nD) (t : Fin cfg1.N) :
    (dat1 V c).flushed 3 t = ((cfg1.win 3).blk t).view.read (Elt Ideal) (combine (V c main_v11) (V c main_v22) (V c main_v12)) := by
  show (cfg1.win 3).cut (grid1.coords t) ((dat1 V c).after 3 t) = _
  rw [after1_3]
  unfold out1_3
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k1_pay1 (F := Ideal) (iblk1 V c 2 t) (iblk1 V c 0 t) (iblk1 V c 1 t) (ix2 p q)
    = (combine (V c main_v11) (V c main_v22) (V c main_v12)) (((cfg1.win 3).blk t).view.emb (ix2 p q))
  refine (combine1_apply (iblk1 V c 2 t) (iblk1 V c 0 t) (iblk1 V c 1 t) p q).trans ?_
  rw [emb3, combine_apply, blk0 V c t p q, blk1 V c t p q, blk2 V c t p]

theorem mem_blk (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v23).slice (win1_3.rect t)).set ↔ _
  rw [View.set_slice_whole, Rect.mem_set_unit]
  exact Iff.rfl

/-- Row r of the output array lies in the block of point r / 2000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 50 := N_1
  obtain ⟨t, ht⟩ : ∃ t : Fin cfg1.N, t.val = (i 0).val / 2000 := ⟨⟨(i 0).val / 2000, by show _ < grid1.N; omega⟩, rfl⟩
  obtain ⟨e0, e1⟩ := idx3 t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After the region its output array is the normalisation column times the sum of its two input arrays, row by row. -/
theorem arr (c : Dev nD) : (dat1 V c).arrAt 3 cfg1.N = combine (V c main_v11) (V c main_v22) (V c main_v12) :=
  (dat1 V c).arrAt_eq_of_cover 3 _ (fun t _ => flushed_eq V c t) cover

end Cert.KernelIdeal.Region1

end
-- ==== Proof.Region2.lean ====
import proofs.«112646_j31791347925571_1_alg».proof.Proof.Gen.KernelIdeal.Frame
import proofs.«112646_j31791347925571_1_alg».proof.Proof.Payload

/-!
# Region 2: the residual sum and the layer norm

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg2.N, t.val < 50 := (by decide +kernel : ∀ t : Fin grid2.N, _)

/-- Window 0's block index at point t is (t, 0). -/
theorem idx0 : ∀ t : Fin cfg2.N, win2_0.index t (0 : Fin 2) = t.val ∧ win2_0.index t (1 : Fin 2) = 0 :=
  (by decide +kernel : ∀ t : Fin grid2.N, _)

/-- Window 1's block index at point t is (t, 0). -/
theorem idx1 : ∀ t : Fin cfg2.N, win2_1.index t (0 : Fin 2) = t.val ∧ win2_1.index t (1 : Fin 2) = 0 :=
  (by decide +kernel : ∀ t : Fin grid2.N, _)

/-- Window 2's block index at point t is (t, 0). -/
theorem idx2 : ∀ t : Fin cfg2.N, win2_2.index t (0 : Fin 2) = t.val ∧ win2_2.index t (1 : Fin 2) = 0 :=
  (by decide +kernel : ∀ t : Fin grid2.N, _)

/-- The array row under row p of point t's blocks. -/
def row (t : Fin cfg2.N) (p : Fin 2000) : Fin 100000 :=
  ⟨t.val * 2000 + p.val, by have := npts t; have := p.isLt; omega⟩

theorem emb0 (t : Fin cfg2.N) (p : Fin 2000) (q : Fin 128) :
    ((cfg2.win 0).blk t).view.emb (ix2 p q) = ix2 (row t p) q := by
  obtain ⟨e0, e1⟩ := idx0 t
  funext a; apply Fin.ext
  match a with
  | ⟨0, _⟩ => show win2_0.index t (0 : Fin 2) * 2000 + 1 * p.val = t.val * 2000 + p.val; omega
  | ⟨1, _⟩ => show win2_0.index t (1 : Fin 2) * 128 + 1 * q.val = q.val; omega

/-- Input window 0's block at point t, read at (p, q), is its array at (2000·t + p, q). -/
theorem blk0 (c : Dev nD) (t : Fin cfg2.N) (p : Fin 2000) (q : Fin 128) :
    iblk2 V c 0 t (ix2 p q) = V c main_v23 (ix2 (row t p) q) := by
  show V c main_v23 (((cfg2.win 0).blk t).view.emb (ix2 p q)) = _
  rw [emb0]

theorem emb1 (t : Fin cfg2.N) (p : Fin 2000) (q : Fin 128) :
    ((cfg2.win 1).blk t).view.emb (ix2 p q) = ix2 (row t p) q := by
  obtain ⟨e0, e1⟩ := idx1 t
  funext a; apply Fin.ext
  match a with
  | ⟨0, _⟩ => show win2_1.index t (0 : Fin 2) * 2000 + 1 * p.val = t.val * 2000 + p.val; omega
  | ⟨1, _⟩ => show win2_1.index t (1 : Fin 2) * 128 + 1 * q.val = q.val; omega

/-- Input window 1's block at point t, read at (p, q), is its array at (2000·t + p, q). -/
theorem blk1 (c : Dev nD) (t : Fin cfg2.N) (p : Fin 2000) (q : Fin 128) :
    iblk2 V c 1 t (ix2 p q) = V c main_arg0 (ix2 (row t p) q) := by
  show V c main_arg0 (((cfg2.win 1).blk t).view.emb (ix2 p q)) = _
  rw [emb1]

theorem emb2 (t : Fin cfg2.N) (p : Fin 2000) (q : Fin 128) :
    ((cfg2.win 2).blk t).view.emb (ix2 p q) = ix2 (row t p) q := by
  obtain ⟨e0, e1⟩ := idx2 t
  funext a; apply Fin.ext
  match a with
  | ⟨0, _⟩ => show win2_2.index t (0 : Fin 2) * 2000 + 1 * p.val = t.val * 2000 + p.val; omega
  | ⟨1, _⟩ => show win2_2.index t (1 : Fin 2) * 128 + 1 * q.val = q.val; omega

/-- What point t writes back is block t of the layer norm of the sum of its two input arrays. -/
theorem flushed_eq (c : Dev nD) (t : Fin cfg2.N) :
    (dat2 V c).flushed 2 t = ((cfg2.win 2).blk t).view.read (Elt Ideal) (layerNorm (addf (V c main_v23) (V c main_arg0))) := by
  show (cfg2.win 2).cut (grid2.coords t) ((dat2 V c).after 2 t) = _
  rw [after2_2]
  unfold out2_2
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
    = (layerNorm (addf (V c main_v23) (V c main_arg0))) (((cfg2.win 2).blk t).view.emb (ix2 p q))
  refine (ln2_apply (iblk2 V c 0 t) (iblk2 V c 1 t) p q).trans ?_
  rw [emb2, layerNorm_apply]
  refine congrArg (fun r => lnRow _ _ r q) (funext fun k => ?_)
  rw [blk0 V c t p k, blk1 V c t p k, addf_apply]

theorem mem_blk (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v24).slice (win2_2.rect t)).set ↔ _
  rw [View.set_slice_whole, Rect.mem_set_unit]
  exact Iff.rfl

/-- Row r of the output array lies in the block of point r / 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 := ⟨⟨(i 0).val / 2000, by show _ < grid2.N; omega⟩, rfl⟩
  obtain ⟨e0, e1⟩ := idx2 t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region its output array is the layer norm of the sum of its two input arrays. -/
theorem arr (c : Dev nD) : (dat2 V c).arrAt 2 cfg2.N = layerNorm (addf (V c main_v23) (V c main_arg0)) :=
  (dat2 V c).arrAt_eq_of_cover 2 _ (fun t _ => flushed_eq V c t) cover

end Cert.KernelIdeal.Region2

end
-- ==== Proof.Region3.lean ====
import proofs.«112646_j31791347925571_1_alg».proof.Proof.Gen.KernelIdeal.Frame
import proofs.«112646_j31791347925571_1_alg».proof.Proof.Payload

/-!
# Region 3: the second scaling

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg3.N, t.val < 50 := (by decide +kernel : ∀ t : Fin grid3.N, _)

/-- Window 0's block index at point t is (t, 0). -/
theorem idx0 : ∀ t : Fin cfg3.N, win3_0.index t (0 : Fin 2) = t.val ∧ win3_0.index t (1 : Fin 2) = 0 :=
  (by decide +kernel : ∀ t : Fin grid3.N, _)

/-- Window 1's block index at point t is (t, 0). -/
theorem idx1 : ∀ t : Fin cfg3.N, win3_1.index t (0 : Fin 2) = t.val ∧ win3_1.index t (1 : Fin 2) = 0 :=
  (by decide +kernel : ∀ t : Fin grid3.N, _)

/-- Window 2's block index at point t is (t, 0). -/
theorem idx2 : ∀ t : Fin cfg3.N, win3_2.index t (0 : Fin 2) = t.val ∧ win3_2.index t (1 : Fin 2) = 0 :=
  (by decide +kernel : ∀ t : Fin grid3.N, _)

/-- The array row under row p of point t's blocks. -/
def row (t : Fin cfg3.N) (p : Fin 2000) : Fin 100000 :=
  ⟨t.val * 2000 + p.val, by have := npts t; have := p.isLt; omega⟩

theorem emb0 (t : Fin cfg3.N) (p : Fin 2000) (q : Fin 128) :
    ((cfg3.win 0).blk t).view.emb (ix2 p q) = ix2 (row t p) q := by
  obtain ⟨e0, e1⟩ := idx0 t
  funext a; apply Fin.ext
  match a with
  | ⟨0, _⟩ => show win3_0.index t (0 : Fin 2) * 2000 + 1 * p.val = t.val * 2000 + p.val; omega
  | ⟨1, _⟩ => show win3_0.index t (1 : Fin 2) * 128 + 1 * q.val = q.val; omega

/-- Input window 0's block at point t, read at (p, q), is its array at (2000·t + p, q). -/
theorem blk0 (c : Dev nD) (t : Fin cfg3.N) (p : Fin 2000) (q : Fin 128) :
    iblk3 V c 0 t (ix2 p q) = V c main_v24 (ix2 (row t p) q) := by
  show V c main_v24 (((cfg3.win 0).blk t).view.emb (ix2 p q)) = _
  rw [emb0]

theorem emb1 (t : Fin cfg3.N) (p : Fin 2000) :
    ((cfg3.win 1).blk t).view.emb (ix2 p 0) = ix2 (row t p) 0 := by
  obtain ⟨e0, e1⟩ := idx1 t
  funext a; apply Fin.ext
  match a with
  | ⟨0, _⟩ => show win3_1.index t (0 : Fin 2) * 2000 + 1 * p.val = t.val * 2000 + p.val; omega
  | ⟨1, _⟩ => show win3_1.index t (1 : Fin 2) * 1 + 1 * 0 = 0; omega

/-- Input window 1's one-column block at point t, read at row p, is its array at row 2000·t + p. -/
theorem blk1 (c : Dev nD) (t : Fin cfg3.N) (p : Fin 2000) :
    iblk3 V c 1 t (ix2 p 0) = V c main_v11 (ix2 (row t p) 0) := by
  show V c main_v11 (((cfg3.win 1).blk t).view.emb (ix2 p 0)) = _
  rw [emb1]

theorem emb2 (t : Fin cfg3.N) (p : Fin 2000) (q : Fin 128) :
    ((cfg3.win 2).blk t).view.emb (ix2 p q) = ix2 (row t p) q := by
  obtain ⟨e0, e1⟩ := idx2 t
  funext a; apply Fin.ext
  match a with
  | ⟨0, _⟩ => show win3_2.index t (0 : Fin 2) * 2000 + 1 * p.val = t.val * 2000 + p.val; omega
  | ⟨1, _⟩ => show win3_2.index t (1 : Fin 2) * 128 + 1 * q.val = q.val; omega

/-- What point t writes back is block t of its input array scaled row by row by the normalisation column. -/
theorem flushed_eq (c : Dev nD) (t : Fin cfg3.N) :
    (dat3 V c).flushed 2 t = ((cfg3.win 2).blk t).view.read (Elt Ideal) (scale (V c main_v11) (V c main_v24)) := by
  show (cfg3.win 2).cut (grid3.coords t) ((dat3 V c).after 2 t) = _
  rw [after3_2]
  unfold out3_2
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = (scale (V c main_v11) (V c main_v24)) (((cfg3.win 2).blk t).view.emb (ix2 p q))
  refine (scale3_apply (iblk3 V c 0 t) (iblk3 V c 1 t) p q).trans ?_
  rw [emb2, scale_apply, blk0 V c t p q, blk1 V c t p]
  exact mul_comm _ _

theorem mem_blk (t : Fin cfg3.N) (i : S100000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v25).slice (win3_2.rect t)).set ↔ _
  rw [View.set_slice_whole, Rect.mem_set_unit]
  exact Iff.rfl

/-- Row r of the output array lies in the block of point r / 2000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 50 := N_3
  obtain ⟨t, ht⟩ : ∃ t : Fin cfg3.N, t.val = (i 0).val / 2000 := ⟨⟨(i 0).val / 2000, by show _ < grid3.N; omega⟩, rfl⟩
  obtain ⟨e0, e1⟩ := idx2 t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region its output array is its input array scaled row by row by the normalisation column. -/
theorem arr (c : Dev nD) : (dat3 V c).arrAt 2 cfg3.N = scale (V c main_v11) (V c main_v24) :=
  (dat3 V c).arrAt_eq_of_cover 2 _ (fun t _ => flushed_eq V c t) cover

end Cert.KernelIdeal.Region3

end
-- ==== Proof.Region4.lean ====
import proofs.«112646_j31791347925571_1_alg».proof.Proof.Gen.KernelIdeal.Frame
import proofs.«112646_j31791347925571_1_alg».proof.Proof.Payload

/-!
# Region 4: the second combine

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg4.N, t.val < 50 := (by decide +kernel : ∀ t : Fin grid4.N, _)

/-- Window 0's block index at point t is (t, 0). -/
theorem idx0 : ∀ t : Fin cfg4.N, win4_0.index t (0 : Fin 2) = t.val ∧ win4_0.index t (1 : Fin 2) = 0 :=
  (by decide +kernel : ∀ t : Fin grid4.N, _)

/-- Window 1's block index at point t is (t, 0). -/
theorem idx1 : ∀ t : Fin cfg4.N, win4_1.index t (0 : Fin 2) = t.val ∧ win4_1.index t (1 : Fin 2) = 0 :=
  (by decide +kernel : ∀ t : Fin grid4.N, _)

/-- Window 2's block index at point t is (t, 0). -/
theorem idx2 : ∀ t : Fin cfg4.N, win4_2.index t (0 : Fin 2) = t.val ∧ win4_2.index t (1 : Fin 2) = 0 :=
  (by decide +kernel : ∀ t : Fin grid4.N, _)

/-- Window 3's block index at point t is (t, 0). -/
theorem idx3 : ∀ t : Fin cfg4.N, win4_3.index t (0 : Fin 2) = t.val ∧ win4_3.index t (1 : Fin 2) = 0 :=
  (by decide +kernel : ∀ t : Fin grid4.N, _)

/-- The array row under row p of point t's blocks. -/
def row (t : Fin cfg4.N) (p : Fin 2000) : Fin 100000 :=
  ⟨t.val * 2000 + p.val, by have := npts t; have := p.isLt; omega⟩

theorem emb0 (t : Fin cfg4.N) (p : Fin 2000) (q : Fin 128) :
    ((cfg4.win 0).blk t).view.emb (ix2 p q) = ix2 (row t p) q := by
  obtain ⟨e0, e1⟩ := idx0 t
  funext a; apply Fin.ext
  match a with
  | ⟨0, _⟩ => show win4_0.index t (0 : Fin 2) * 2000 + 1 * p.val = t.val * 2000 + p.val; omega
  | ⟨1, _⟩ => show win4_0.index t (1 : Fin 2) * 128 + 1 * q.val = q.val; omega

/-- Input window 0's block at point t, read at (p, q), is its array at (2000·t + p, q). -/
theorem blk0 (c : Dev nD) (t : Fin cfg4.N) (p : Fin 2000) (q : Fin 128) :
    iblk4 V c 0 t (ix2 p q) = V c main_v35 (ix2 (row t p) q) := by
  show V c main_v35 (((cfg4.win 0).blk t).view.emb (ix2 p q)) = _
  rw [emb0]

theorem emb1 (t : Fin cfg4.N) (p : Fin 2000) (q : Fin 128) :
    ((cfg4.win 1).blk t).view.emb (ix2 p q) = ix2 (row t p) q := by
  obtain ⟨e0, e1⟩ := idx1 t
  funext a; apply Fin.ext
  match a with
  | ⟨0, _⟩ => show win4_1.index t (0 : Fin 2) * 2000 + 1 * p.val = t.val * 2000 + p.val; omega
  | ⟨1, _⟩ => show win4_1.index t (1 : Fin 2) * 128 + 1 * q.val = q.val; omega

/-- Input window 1's block at point t, read at (p, q), is its array at (2000·t + p, q). -/
theorem blk1 (c : Dev nD) (t : Fin cfg4.N) (p : Fin 2000) (q : Fin 128) :
    iblk4 V c 1 t (ix2 p q) = V c main_v25 (ix2 (row t p) q) := by
  show V c main_v25 (((cfg4.win 1).blk t).view.emb (ix2 p q)) = _
  rw [emb1]

theorem emb2 (t : Fin cfg4.N) (p : Fin 2000) :
    ((cfg4.win 2).blk t).view.emb (ix2 p 0) = ix2 (row t p) 0 := by
  obtain ⟨e0, e1⟩ := idx2 t
  funext a; apply Fin.ext
  match a with
  | ⟨0, _⟩ => show win4_2.index t (0 : Fin 2) * 2000 + 1 * p.val = t.val * 2000 + p.val; omega
  | ⟨1, _⟩ => show win4_2.index t (1 : Fin 2) * 1 + 1 * 0 = 0; omega

/-- Input window 2's one-column block at point t, read at row p, is its array at row 2000·t + p. -/
theorem blk2 (c : Dev nD) (t : Fin cfg4.N) (p : Fin 2000) :
    iblk4 V c 2 t (ix2 p 0) = V c main_v11 (ix2 (row t p) 0) := by
  show V c main_v11 (((cfg4.win 2).blk t).view.emb (ix2 p 0)) = _
  rw [emb2]

theorem emb3 (t : Fin cfg4.N) (p : Fin 2000) (q : Fin 128) :
    ((cfg4.win 3).blk t).view.emb (ix2 p q) = ix2 (row t p) q := by
  obtain ⟨e0, e1⟩ := idx3 t
  funext a; apply Fin.ext
  match a with
  | ⟨0, _⟩ => show win4_3.index t (0 : Fin 2) * 2000 + 1 * p.val = t.val * 2000 + p.val; omega
  | ⟨1, _⟩ => show win4_3.index t (1 : Fin 2) * 128 + 1 * q.val = q.val; omega

/-- What point t writes back is block t of the normalisation column times the sum of its two input arrays, row by row. -/
theorem flushed_eq (c : Dev nD) (t : Fin cfg4.N) :
    (dat4 V c).flushed 3 t = ((cfg4.win 3).blk t).view.read (Elt Ideal) (combine (V c main_v11) (V c main_v35) (V c main_v25)) := by
  show (cfg4.win 3).cut (grid4.coords t) ((dat4 V c).after 3 t) = _
  rw [after4_3]
  unfold out4_3
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k4_pay1 (F := Ideal) (iblk4 V c 2 t) (iblk4 V c 0 t) (iblk4 V c 1 t) (ix2 p q)
    = (combine (V c main_v11) (V c main_v35) (V c main_v25)) (((cfg4.win 3).blk t).view.emb (ix2 p q))
  refine (combine4_apply (iblk4 V c 2 t) (iblk4 V c 0 t) (iblk4 V c 1 t) p q).trans ?_
  rw [emb3, combine_apply, blk0 V c t p q, blk1 V c t p q, blk2 V c t p]

theorem mem_blk (t : Fin cfg4.N) (i : S100000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v36).slice (win4_3.rect t)).set ↔ _
  rw [View.set_slice_whole, Rect.mem_set_unit]
  exact Iff.rfl

/-- Row r of the output array lies in the block of point r / 2000. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : grid4.N = 50 := N_4
  obtain ⟨t, ht⟩ : ∃ t : Fin cfg4.N, t.val = (i 0).val / 2000 := ⟨⟨(i 0).val / 2000, by show _ < grid4.N; omega⟩, rfl⟩
  obtain ⟨e0, e1⟩ := idx3 t
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- After the region its output array is the normalisation column times the sum of its two input arrays, row by row. -/
theorem arr (c : Dev nD) : (dat4 V c).arrAt 3 cfg4.N = combine (V c main_v11) (V c main_v35) (V c main_v25) :=
  (dat4 V c).arrAt_eq_of_cover 3 _ (fun t _ => flushed_eq V c t) cover

end Cert.KernelIdeal.Region4

end
-- ==== Proof.Region5.lean ====
import proofs.«112646_j31791347925571_1_alg».proof.Proof.Gen.KernelIdeal.Frame
import proofs.«112646_j31791347925571_1_alg».proof.Proof.Payload

/-!
# Region 5: the last residual sum

The region's grid has 50 points; at point t every window's block is rows 2000·t … 2000·t + 1999 of its
array (all its lanes).  So entry (p, q) of a block is entry (2000·t + p, q) of the array, what the body
stores at (p, q) depends on row 2000·t + p of the input arrays only, and the 50 output blocks tile the
output array: after the region the output array is ONE row-wise function of the input arrays as the
region found them.
-/

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx Cert.Gcn Cert.KernelIdeal.Payload
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The grid has 50 points. -/
theorem npts : ∀ t : Fin cfg5.N, t.val < 50 := (by decide +kernel : ∀ t : Fin grid5.N, _)

/-- Window 0's block index at point t is (t, 0). -/
theorem idx0 : ∀ t : Fin cfg5.N, win5_0.index t (0 : Fin 2) = t.val ∧ win5_0.index t (1 : Fin 2) = 0 :=
  (by decide +kernel : ∀ t : Fin grid5.N, _)

/-- Window 1's block index at point t is (t, 0). -/
theorem idx1 : ∀ t : Fin cfg5.N, win5_1.index t (0 : Fin 2) = t.val ∧ win5_1.index t (1 : Fin 2) = 0 :=
  (by decide +kernel : ∀ t : Fin grid5.N, _)

/-- Window 2's block index at point t is (t, 0). -/
theorem idx2 : ∀ t : Fin cfg5.N, win5_2.index t (0 : Fin 2) = t.val ∧ win5_2.index t (1 : Fin 2) = 0 :=
  (by decide +kernel : ∀ t : Fin grid5.N, _)

/-- The array row under row p of point t's blocks. -/
def row (t : Fin cfg5.N) (p : Fin 2000) : Fin 100000 :=
  ⟨t.val * 2000 + p.val, by have := npts t; have := p.isLt; omega⟩

theorem emb0 (t : Fin cfg5.N) (p : Fin 2000) (q : Fin 128) :
    ((cfg5.win 0).blk t).view.emb (ix2 p q) = ix2 (row t p) q := by
  obtain ⟨e0, e1⟩ := idx0 t
  funext a; apply Fin.ext
  match a with
  | ⟨0, _⟩ => show win5_0.index t (0 : Fin 2) * 2000 + 1 * p.val = t.val * 2000 + p.val; omega
  | ⟨1, _⟩ => show win5_0.index t (1 : Fin 2) * 128 + 1 * q.val = q.val; omega

/-- Input window 0's block at point t, read at (p, q), is its array at (2000·t + p, q). -/
theorem blk0 (c : Dev nD) (t : Fin cfg5.N) (p : Fin 2000) (q : Fin 128) :
    iblk5 V c 0 t (ix2 p q) = V c main_v36 (ix2 (row t p) q) := by
  show V c main_v36 (((cfg5.win 0).blk t).view.emb (ix2 p q)) = _
  rw [emb0]

theorem emb1 (t : Fin cfg5.N) (p : Fin 2000) (q : Fin 128) :
    ((cfg5.win 1).blk t).view.emb (ix2 p q) = ix2 (row t p) q := by
  obtain ⟨e0, e1⟩ := idx1 t
  funext a; apply Fin.ext
  match a with
  | ⟨0, _⟩ => show win5_1.index t (0 : Fin 2) * 2000 + 1 * p.val = t.val * 2000 + p.val; omega
  | ⟨1, _⟩ => show win5_1.index t (1 : Fin 2) * 128 + 1 * q.val = q.val; omega

/-- Input window 1's block at point t, read at (p, q), is its array at (2000·t + p, q). -/
theorem blk1 (c : Dev nD) (t : Fin cfg5.N) (p : Fin 2000) (q : Fin 128) :
    iblk5 V c 1 t (ix2 p q) = V c main_arg0 (ix2 (row t p) q) := by
  show V c main_arg0 (((cfg5.win 1).blk t).view.emb (ix2 p q)) = _
  rw [emb1]

theorem emb2 (t : Fin cfg5.N) (p : Fin 2000) (q : Fin 128) :
    ((cfg5.win 2).blk t).view.emb (ix2 p q) = ix2 (row t p) q := by
  obtain ⟨e0, e1⟩ := idx2 t
  funext a; apply Fin.ext
  match a with
  | ⟨0, _⟩ => show win5_2.index t (0 : Fin 2) * 2000 + 1 * p.val = t.val * 2000 + p.val; omega
  | ⟨1, _⟩ => show win5_2.index t (1 : Fin 2) * 128 + 1 * q.val = q.val; omega

/-- What point t writes back is block t of the sum of its two input arrays. -/
theorem flushed_eq (c : Dev nD) (t : Fin cfg5.N) :
    (dat5 V c).flushed 2 t = ((cfg5.win 2).blk t).view.read (Elt Ideal) ((addf (V c main_v36) (V c main_arg0) : Arr)) := by
  show (cfg5.win 2).cut (grid5.coords t) ((dat5 V c).after 2 t) = _
  rw [after5_2]
  unfold out5_2
  rw [View.canon_unit_zero zero_off]
  simp only [View.ld_unit_zero (S := S2000x128) zero_off, View.ld_unit_zero (S := S2000x1) zero_off]
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (ix2 p q)
    = ((addf (V c main_v36) (V c main_arg0) : Arr)) (((cfg5.win 2).blk t).view.emb (ix2 p q))
  refine (add5_apply (iblk5 V c 0 t) (iblk5 V c 1 t) (ix2 p q)).trans ?_
  rw [emb2, addf_apply, blk0 V c t p q, blk1 V c t p q]

theorem mem_blk (t : Fin cfg5.N) (i : S100000x128.Idx) :
    i ∈ ((cfg5.win 2).blk t).view.set ↔ ∀ a : Fin 2, win5_2.index t a * S2000x128.size a ≤ (i a).val
      ∧ (i a).val < win5_2.index t a * S2000x128.size a + S2000x128.size a := by
  show i ∈ ((View.whole main_v37).slice (win5_2.rect t)).set ↔ _
  rw [View.set_slice_whole, Rect.mem_set_unit]
  exact Iff.rfl

/-- Row r of the output array lies in the block of point r / 2000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 50 := N_5
  obtain ⟨t, ht⟩ : ∃ t : Fin cfg5.N, t.val = (i 0).val / 2000 := ⟨⟨(i 0).val / 2000, by show _ < grid5.N; omega⟩, rfl⟩
  obtain ⟨e0, e1⟩ := idx2 t
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After the region its output array is the sum of its two input arrays. -/
theorem arr (c : Dev nD) : (dat5 V c).arrAt 2 cfg5.N = (addf (V c main_v36) (V c main_arg0) : Arr) :=
  (dat5 V c).arrAt_eq_of_cover 2 _ (fun t _ => flushed_eq V c t) cover

end Cert.KernelIdeal.Region5

end
-- ==== Proof.Fold.lean ====
import proofs.«112646_j31791347925571_1_alg».proof.Proof.Gen.KernelIdeal.Frame
import proofs.«112646_j31791347925571_1_alg».proof.Proof.HostSteps
import proofs.«112646_j31791347925571_1_alg».proof.Proof.Region0
import proofs.«112646_j31791347925571_1_alg».proof.Proof.Region1
import proofs.«112646_j31791347925571_1_alg».proof.Proof.Region2
import proofs.«112646_j31791347925571_1_alg».proof.Proof.Region3
import proofs.«112646_j31791347925571_1_alg».proof.Proof.Region4
import proofs.«112646_j31791347925571_1_alg».proof.Proof.Region5

/-!
# The kernel program's result array as the network of its arguments

The program's buffers are followed through its nine segments.  With x the node features, n the degree
normalisation column and d, s the two index vectors of the edge list, the arrays that later segments
read hold, in order:

  h₁ = scale n x,  a₁ = neighbour sum of h₁,  c₁ = combine n a₁ h₁,  l = layerNorm (c₁ + x),
  h₂ = scale n l,  a₂ = neighbour sum of h₂,  c₂ = combine n a₂ h₂,  result = c₂ + x.

A region leaves its input arrays as it found them and its output array at the region's row-wise
function; a stretch of host operations leaves what it does not write.  The result is the reference's
network of (x, edge list); where the kernel multiplies a row by its normalisation on the right the
reference multiplies on the left, and multiplication of extended reals commutes.
-/

set_option maxRecDepth 16384

noncomputable section

namespace Cert.KernelIdeal.Fold

open Cert.KernelIdeal Cert.KernelIdeal.Gen Idealize.ShloMosaic Idealize.ShloMosaic.TcCoe Idealize.SL.Sem
open Cert.Gcn Cert.KernelIdeal.HostSteps
open Idealize.ShloMosaic.Pipeline (Dat)

variable (m : (ℓ : Loc nD τ sig) → Buf (Elt Ideal) ℓ) (ρ : Dev nD → PrngReg) (c : Dev nD)

theorem congr3 {α β γ δ : Sort _} (f : α → β → γ → δ) {a a' : α} {b b' : β} {e e' : γ}
    (h1 : a = a') (h2 : b = b') (h3 : e = e') : f a b e = f a' b' e' := by rw [h1, h2, h3]

/-- The node features and the edge list the program is launched with. -/
abbrev X : Arr := m ((c : Thread nD τ).loc main_arg0)
abbrev E : Edges := m ((c : Thread nD τ).loc main_arg1)

abbrev nrm : Col := norm (E m c)
abbrev dst : IdxVec := Cert.ReferenceIdeal.Read.val_main_v1 (F := Ideal) (E m c)
abbrev src : IdxVec := Cert.ReferenceIdeal.Read.val_main_v3 (F := Ideal) (E m c)
abbrev h₁ : Arr := scale (nrm m c) (X m c)
abbrev a₁ : Arr := aggIdx (h₁ m c) (dst m c) (src m c)
abbrev c₁ : Arr := combine (nrm m c) (a₁ m c) (h₁ m c)
abbrev l₁ : Arr := layerNorm (addf (c₁ m c) (X m c))
abbrev h₂ : Arr := scale (nrm m c) (l₁ m c)
abbrev a₂ : Arr := aggIdx (h₂ m c) (dst m c) (src m c)
abbrev c₂ : Arr := combine (nrm m c) (a₂ m c) (h₂ m c)
abbrev res : Arr := addf (c₂ m c) (X m c)

/-! ## After the first stretch of host operations -/

theorem w1_arg0 : W1 m ρ c (Proc.devRef .tc main_arg0) = X m c := host0_arg0 (W0 m ρ c)
theorem w1_v11 : W1 m ρ c (Proc.devRef .tc main_v11) = nrm m c := host0_v11 (W0 m ρ c)
theorem w1_v1 : W1 m ρ c (Proc.devRef .tc main_v1) = dst m c := host0_v1 (W0 m ρ c)
theorem w1_v3 : W1 m ρ c (Proc.devRef .tc main_v3) = src m c := host0_v3 (W0 m ρ c)

/-! ## After region 0 -/

theorem w2_arg0 : W2 m ρ c (Proc.devRef .tc main_arg0) = X m c := (W2_arr m ρ c 0).trans (((dat0 (V1 m ρ) c).arrAt_in 0 rfl _).trans ((A_eq0 (V1 m ρ) c 0).trans (w1_arg0 m ρ c)))
theorem w2_v11 : W2 m ρ c (Proc.devRef .tc main_v11) = nrm m c := (W2_arr m ρ c 1).trans (((dat0 (V1 m ρ) c).arrAt_in 1 rfl _).trans ((A_eq0 (V1 m ρ) c 1).trans (w1_v11 m ρ c)))
theorem w2_v1 : W2 m ρ c (Proc.devRef .tc main_v1) = dst m c := (W2_of_ne m ρ c main_v1 (by decide)).trans (w1_v1 m ρ c)
theorem w2_v3 : W2 m ρ c (Proc.devRef .tc main_v3) = src m c := (W2_of_ne m ρ c main_v3 (by decide)).trans (w1_v3 m ρ c)
theorem w2_v12 : W2 m ρ c (Proc.devRef .tc main_v12) = h₁ m c :=
  (W2_arr m ρ c 2).trans ((Region0.arr (V1 m ρ) c).trans (congrArg₂ scale (w1_v11 m ρ c) (w1_arg0 m ρ c)))

/-! ## After the second stretch of host operations -/

theorem w3_arg0 : W3 m ρ c (Proc.devRef .tc main_arg0) = X m c := (host1_arg0 (W2 m ρ c)).trans (w2_arg0 m ρ c)
theorem w3_v11 : W3 m ρ c (Proc.devRef .tc main_v11) = nrm m c := (host1_v11 (W2 m ρ c)).trans (w2_v11 m ρ c)
theorem w3_v12 : W3 m ρ c (Proc.devRef .tc main_v12) = h₁ m c := (host1_v12 (W2 m ρ c)).trans (w2_v12 m ρ c)
theorem w3_v1 : W3 m ρ c (Proc.devRef .tc main_v1) = dst m c := (host1_v1 (W2 m ρ c)).trans (w2_v1 m ρ c)
theorem w3_v3 : W3 m ρ c (Proc.devRef .tc main_v3) = src m c := (host1_v3 (W2 m ρ c)).trans (w2_v3 m ρ c)
theorem w3_v22 : W3 m ρ c (Proc.devRef .tc main_v22) = a₁ m c :=
  (host1_v22 (W2 m ρ c)).trans (congr3 aggIdx (w2_v12 m ρ c) (w2_v1 m ρ c) (w2_v3 m ρ c))

/-! ## After region 1 -/

theorem w4_arg0 : W4 m ρ c (Proc.devRef .tc main_arg0) = X m c := (W4_of_ne m ρ c main_arg0 (by decide)).trans (w3_arg0 m ρ c)
theorem w4_v11 : W4 m ρ c (Proc.devRef .tc main_v11) = nrm m c := (W4_arr m ρ c 2).trans (((dat1 (V3 m ρ) c).arrAt_in 2 rfl _).trans ((A_eq1 (V3 m ρ) c 2).trans (w3_v11 m ρ c)))
theorem w4_v1 : W4 m ρ c (Proc.devRef .tc main_v1) = dst m c := (W4_of_ne m ρ c main_v1 (by decide)).trans (w3_v1 m ρ c)
theorem w4_v3 : W4 m ρ c (Proc.devRef .tc main_v3) = src m c := (W4_of_ne m ρ c main_v3 (by decide)).trans (w3_v3 m ρ c)
theorem w4_v23 : W4 m ρ c (Proc.devRef .tc main_v23) = c₁ m c :=
  (W4_arr m ρ c 3).trans ((Region1.arr (V3 m ρ) c).trans (congr3 combine (w3_v11 m ρ c) (w3_v22 m ρ c) (w3_v12 m ρ c)))

/-! ## After region 2 -/

theorem w5_arg0 : W5 m ρ c (Proc.devRef .tc main_arg0) = X m c := (W5_arr m ρ c 1).trans (((dat2 (V4 m ρ) c).arrAt_in 1 rfl _).trans ((A_eq2 (V4 m ρ) c 1).trans (w4_arg0 m ρ c)))
theorem w5_v11 : W5 m ρ c (Proc.devRef .tc main_v11) = nrm m c := (W5_of_ne m ρ c main_v11 (by decide)).trans (w4_v11 m ρ c)
theorem w5_v1 : W5 m ρ c (Proc.devRef .tc main_v1) = dst m c := (W5_of_ne m ρ c main_v1 (by decide)).trans (w4_v1 m ρ c)
theorem w5_v3 : W5 m ρ c (Proc.devRef .tc main_v3) = src m c := (W5_of_ne m ρ c main_v3 (by decide)).trans (w4_v3 m ρ c)
theorem w5_v24 : W5 m ρ c (Proc.devRef .tc main_v24) = l₁ m c :=
  (W5_arr m ρ c 2).trans ((Region2.arr (V4 m ρ) c).trans (congrArg layerNorm (congrArg₂ addf (w4_v23 m ρ c) (w4_arg0 m ρ c))))

/-! ## After region 3 -/

theorem w6_arg0 : W6 m ρ c (Proc.devRef .tc main_arg0) = X m c := (W6_of_ne m ρ c main_arg0 (by decide)).trans (w5_arg0 m ρ c)
theorem w6_v11 : W6 m ρ c (Proc.devRef .tc main_v11) = nrm m c := (W6_arr m ρ c 1).trans (((dat3 (V5 m ρ) c).arrAt_in 1 rfl _).trans ((A_eq3 (V5 m ρ) c 1).trans (w5_v11 m ρ c)))
theorem w6_v1 : W6 m ρ c (Proc.devRef .tc main_v1) = dst m c := (W6_of_ne m ρ c main_v1 (by decide)).trans (w5_v1 m ρ c)
theorem w6_v3 : W6 m ρ c (Proc.devRef .tc main_v3) = src m c := (W6_of_ne m ρ c main_v3 (by decide)).trans (w5_v3 m ρ c)
theorem w6_v25 : W6 m ρ c (Proc.devRef .tc main_v25) = h₂ m c :=
  (W6_arr m ρ c 2).trans ((Region3.arr (V5 m ρ) c).trans (congrArg₂ scale (w5_v11 m ρ c) (w5_v24 m ρ c)))

/-! ## After the third stretch of host operations -/

theorem w7_arg0 : W7 m ρ c (Proc.devRef .tc main_arg0) = X m c := (host4_arg0 (W6 m ρ c)).trans (w6_arg0 m ρ c)
theorem w7_v11 : W7 m ρ c (Proc.devRef .tc main_v11) = nrm m c := (host4_v11 (W6 m ρ c)).trans (w6_v11 m ρ c)
theorem w7_v25 : W7 m ρ c (Proc.devRef .tc main_v25) = h₂ m c := (host4_v25 (W6 m ρ c)).trans (w6_v25 m ρ c)
theorem w7_v35 : W7 m ρ c (Proc.devRef .tc main_v35) = a₂ m c :=
  (host4_v35 (W6 m ρ c)).trans (congr3 aggIdx (w6_v25 m ρ c) (w6_v1 m ρ c) (w6_v3 m ρ c))

/-! ## After region 4 -/

theorem w8_arg0 : W8 m ρ c (Proc.devRef .tc main_arg0) = X m c := (W8_of_ne m ρ c main_arg0 (by decide)).trans (w7_arg0 m ρ c)
theorem w8_v36 : W8 m ρ c (Proc.devRef .tc main_v36) = c₂ m c :=
  (W8_arr m ρ c 3).trans ((Region4.arr (V7 m ρ) c).trans (congr3 combine (w7_v11 m ρ c) (w7_v35 m ρ c) (w7_v25 m ρ c)))

/-! ## After region 5: the result -/

theorem w9_v37 : W9 m ρ c (Proc.devRef .tc main_v37) = res m c :=
  (W9_arr m ρ c 2).trans ((Region5.arr (V8 m ρ) c).trans (congrArg₂ addf (w8_v36 m ρ c) (w8_arg0 m ρ c)))

/-- The chain of stages is the reference's network. -/
theorem res_eq : res m c = net (X m c) (E m c) := rfl

/-- The kernel program's result array is the network of its arguments. -/
theorem result : W9 m ρ c (Proc.devRef .tc main_v37) = net (X m c) (E m c) := (w9_v37 m ρ c).trans (res_eq m c)

end Cert.KernelIdeal.Fold

end
-- ==== Proof.lean ====
/-
  A two-layer graph convolution on 100000 nodes with 128 features and 1600000 edges, computed by six
  row-tiled kernels among host gathers and scatter-adds, against the plain array program.

  With n = rsqrt(1 + in-degree) as a column, A the neighbour sum (rows gathered at the edges' sources and
  added into the rows of their destinations) and

      conv x = n · (A (n · x) + n · x)            (row by row),

  both programs compute  conv (layerNorm (conv x + x)) + x,  the layer norm taken over the 128 lanes of
  each row (mean and variance by lane sums divided by 128, ε = the f32 nearest 1e-5).  The index vectors,
  the degree column and the two neighbour sums are the same host operations on both sides and are never
  opened.  Each kernel region works on 50 tiles of 2000 rows, and everything it computes is row-local, so
  the region's output array is one row-wise function of its input arrays; the only algebra between the two
  sides is that the kernels scale a row as x · n where the reference writes n · x.  No finiteness of the
  inputs is used: commutativity of the product holds on all extended reals, and every other step is the
  same operation on the same operands.

  The three frame claims are the generated ones (the reference's from its generated run); the
  idealization rewrote nothing, so its claim is trivial.
-/
import proofs.«112646_j31791347925571_1_alg».proof.Defs
import proofs.«112646_j31791347925571_1_alg».proof.Proof.Gen.Kernel
import proofs.«112646_j31791347925571_1_alg».proof.Proof.Gen.Kernel.Skeleton
import proofs.«112646_j31791347925571_1_alg».proof.Proof.Gen.Kernel.Launch
import proofs.«112646_j31791347925571_1_alg».proof.Proof.Gen.Kernel.Points
import proofs.«112646_j31791347925571_1_alg».proof.Proof.Gen.Kernel.Frame
import proofs.«112646_j31791347925571_1_alg».proof.Proof.Gen.KernelIdeal
import proofs.«112646_j31791347925571_1_alg».proof.Proof.Gen.KernelIdeal.Skeleton
import proofs.«112646_j31791347925571_1_alg».proof.Proof.Gen.KernelIdeal.Launch
import proofs.«112646_j31791347925571_1_alg».proof.Proof.Gen.KernelIdeal.Points
import proofs.«112646_j31791347925571_1_alg».proof.Proof.Gen.KernelIdeal.Frame
import proofs.«112646_j31791347925571_1_alg».proof.Proof.Gen.ReferenceIdeal
import proofs.«112646_j31791347925571_1_alg».proof.Proof.Gen.ReferenceIdeal.Run
import proofs.«112646_j31791347925571_1_alg».proof.Proof.Gen.ReferenceIdeal.Read
import proofs.«112646_j31791347925571_1_alg».proof.Proof.Gen.Pre_finite_inputs
import proofs.«112646_j31791347925571_1_alg».proof.Proof.KernelRun
import proofs.«112646_j31791347925571_1_alg».proof.Proof.RefStages
import proofs.«112646_j31791347925571_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the network of the launched node features and edge list in their result arrays. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Fold.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, Cert.Gcn.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
